-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x512 : Shape := ⟨2, ![4, 512]⟩
abbrev S1024x1024 : Shape := ⟨2, ![1024, 1024]⟩
abbrev S1024 : Shape := ⟨1, ![1024]⟩
abbrev S512x4096 : Shape := ⟨2, ![512, 4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_arg4 : FVec F S512x4096 .f32) (main_arg5 : FVec F S512x4096 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  main_v28

def fn {F : FTy → Type} [FloatOps F] (main_arg0 : FVec F S4x4096x1024 .f32) (main_arg1 : FVec F S4x512 .f32) (main_arg2 : FVec F S1024x1024 .f32) (main_arg3 : FVec F S1024 .f32) (main_arg4 : FVec F S512x4096 .f32) (main_arg5 : FVec F S512x4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4x4096x1024 : Shape := ⟨3, ![4, 4096, 1024]⟩
abbrev S4x512 : Shape := ⟨2, ![4, 512]⟩
abbrev S1024x1024 : Shape := ⟨2, ![1024, 1024]⟩
abbrev S1024 : Shape := ⟨1, ![1024]⟩
abbrev S512x4096 : Shape := ⟨2, ![512, 4096]⟩
abbrev S4x4096 : Shape := ⟨2, ![4, 4096]⟩
abbrev S4x4x1024 : Shape := ⟨3, ![4, 4, 1024]⟩
abbrev S_ : Shape := ⟨0, ![]⟩
abbrev S4x1024x4 : Shape := ⟨3, ![4, 1024, 4]⟩
abbrev S1x2048x1024 : Shape := ⟨3, ![1, 2048, 1024]⟩
abbrev S1x1024x4 : Shape := ⟨3, ![1, 1024, 4]⟩
abbrev S1x4x1024 : Shape := ⟨3, ![1, 4, 1024]⟩
abbrev S2048x1024 : Shape := ⟨2, ![2048, 1024]⟩
abbrev S1x1024 : Shape := ⟨2, ![1, 1024]⟩
abbrev S1024x4 : Shape := ⟨2, ![1024, 4]⟩
abbrev S4x1024 : Shape := ⟨2, ![4, 1024]⟩
abbrev S2048x4 : Shape := ⟨2, ![2048, 4]⟩

abbrev nBuf : Space → Nat
  | .hbm => 21
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x512, .f32⟩
  | .hbm, ⟨2, _⟩ => ⟨S1024x1024, .f32⟩
  | .hbm, ⟨3, _⟩ => ⟨S1024, .f32⟩
  | .hbm, ⟨4, _⟩ => ⟨S512x4096, .f32⟩
  | .hbm, ⟨5, _⟩ => ⟨S512x4096, .f32⟩
  | .hbm, ⟨6, _⟩ => ⟨S4x4096, .f32⟩
  | .hbm, ⟨7, _⟩ => ⟨S4x4x1024, .f32⟩
  | .hbm, ⟨8, _⟩ => ⟨S4x4096, .f32⟩
  | .hbm, ⟨9, _⟩ => ⟨S4x4x1024, .f32⟩
  | .hbm, ⟨10, _⟩ => ⟨S_, .f32⟩
  | .hbm, ⟨11, _⟩ => ⟨S4x4x1024, .f32⟩
  | .hbm, ⟨12, _⟩ => ⟨S4x4x1024, .f32⟩
  | .hbm, ⟨13, _⟩ => ⟨S_, .f32⟩
  | .hbm, ⟨14, _⟩ => ⟨S4x4x1024, .f32⟩
  | .hbm, ⟨15, _⟩ => ⟨S4x4x1024, .f32⟩
  | .hbm, ⟨16, _⟩ => ⟨S4x1024x4, .f32⟩
  | .hbm, ⟨17, _⟩ => ⟨S4x1024x4, .bf16⟩
  | .hbm, ⟨18, _⟩ => ⟨S4x4x1024, .bf16⟩
  | .hbm, ⟨19, _⟩ => ⟨S1024x1024, .bf16⟩
  | .hbm, ⟨20, _⟩ => ⟨S4x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x1024, .bf16⟩
  | .local _ .vmem, ⟨3, _⟩ => ⟨S1024, .f32⟩
  | .local _ .vmem, ⟨4, _⟩ => ⟨S1x1024x4, .bf16⟩
  | .local _ .vmem, ⟨5, _⟩ => ⟨S1x1024x4, .bf16⟩
  | .local _ .vmem, ⟨6, _⟩ => ⟨S1x4x1024, .bf16⟩
  | .local _ .vmem, ⟨7, _⟩ => ⟨S1x4x1024, .bf16⟩
  | .local _ .vmem, ⟨8, _⟩ => ⟨S1x2048x1024, .f32⟩
  | .local _ .vmem, ⟨9, _⟩ => ⟨S1x2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x4 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x4096_S4x4x1024 : S4x4096.ShapeCasts S4x4x1024
  bcast_S_S4x4x1024 : S_.BroadcastsInDim S4x4x1024 (![] : Fin 0 → Fin S4x4x1024.rank)
  transposes_S4x4x1024_S4x1024x4_0_2_1 : S4x4x1024.Transposes [0, 2, 1] S4x1024x4
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S1x1024x4_S1x1024x4_0_0_0 : ∀ a, (![0, 0, 0] : Fin 3 → Nat) a + S1x1024x4.size a ≤ S1x1024x4.size a
  h_S1x1024x4 : 0 < S1x1024x4.numel
  shapeCasts_S1x1024x4_S1024x4 : S1x1024x4.ShapeCasts S1024x4
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  shapeCasts_S2048x1024_S1x2048x1024 : S2048x1024.ShapeCasts S1x2048x1024
  dot_S4x512_S512x4096_S4x4096_1_0_0_1_n_n_wf : DotDims.WF S4x512 S512x4096 S4x4096 [1] [0] [0] [1] [] []
  dot_S2048x1024_S1024x1024_S2048x1024_1_0_0_1_n_n_wf : DotDims.WF S2048x1024 S1024x1024 S2048x1024 [1] [0] [0] [1] [] []
  dot_S2048x1024_S1024x4_S2048x4_1_0_0_1_n_n_wf : DotDims.WF S2048x1024 S1024x4 S2048x4 [1] [0] [0] [1] [] []
  dot_S2048x4_S4x1024_S2048x1024_1_0_0_1_n_n_wf : DotDims.WF S2048x4 S4x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x1024.size a
  hwx0_0 : ∀ i : grid0.Coords, EltTy.bits .f32 = 32 ∨ (Rect.block (s := S4x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x4.size a ≤ S4x1024x4.size a
  hwx0_3 : ∀ i : grid0.Coords, EltTy.bits .bf16 = 32 ∨ (Rect.block (s := S4x1024x4) S1x1024x4.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x1024.size a ≤ S4x4x1024.size a
  hwx0_4 : ∀ i : grid0.Coords, EltTy.bits .bf16 = 32 ∨ (Rect.block (s := S4x4x1024) S1x4x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x1024.size a ≤ S4x4096x1024.size a
  hwx0_5 : ∀ i : grid0.Coords, EltTy.bits .f32 = 32 ∨ (Rect.block (s := S4x4096x1024) S1x2048x1024.size (cc0_transform_5 i) (hinb0_5 i)).WholeWords (EltTy.packing .f32)

variable [Facts₀]

def dot_S4x512_S512x4096_S4x4096_1_0_0_1_n_n : DotDims S4x512 S512x4096 S4x4096 where
  lhsContracting := [1]
  rhsContracting := [0]
  lhsNonContracting := [0]
  rhsNonContracting := [1]
  lhsBatch := []
  rhsBatch := []
  wf := dot_S4x512_S512x4096_S4x4096_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x4_S2048x4_1_0_0_1_n_n : DotDims S2048x1024 S1024x4 S2048x4 where
  lhsContracting := [1]
  rhsContracting := [0]
  lhsNonContracting := [0]
  rhsNonContracting := [1]
  lhsBatch := []
  rhsBatch := []
  wf := dot_S2048x1024_S1024x4_S2048x4_1_0_0_1_n_n_wf
def dot_S2048x4_S4x1024_S2048x1024_1_0_0_1_n_n : DotDims S2048x4 S4x1024 S2048x1024 where
  lhsContracting := [1]
  rhsContracting := [0]
  lhsNonContracting := [0]
  rhsNonContracting := [1]
  lhsBatch := []
  rhsBatch := []
  wf := dot_S2048x4_S4x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x4x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x512 : Shape := ⟨2, ![4, 512]⟩
abbrev S1024x1024 : Shape := ⟨2, ![1024, 1024]⟩
abbrev S1024 : Shape := ⟨1, ![1024]⟩
abbrev S512x4096 : Shape := ⟨2, ![512, 4096]⟩
abbrev S1x1x1024 : Shape := ⟨3, ![1, 1, 1024]⟩
abbrev S4x4096 : Shape := ⟨2, ![4, 4096]⟩
abbrev S4x4x1024 : Shape := ⟨3, ![4, 4, 1024]⟩
abbrev S_ : Shape := ⟨0, ![]⟩
abbrev S4x4096x4 : Shape := ⟨3, ![4, 4096, 4]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x512, .f32⟩
  | .hbm, ⟨2, _⟩ => ⟨S1024x1024, .f32⟩
  | .hbm, ⟨3, _⟩ => ⟨S1024, .f32⟩
  | .hbm, ⟨4, _⟩ => ⟨S512x4096, .f32⟩
  | .hbm, ⟨5, _⟩ => ⟨S512x4096, .f32⟩
  | .hbm, ⟨6, _⟩ => ⟨S4x4096x1024, .f32⟩
  | .hbm, ⟨7, _⟩ => ⟨S1x1x1024, .f32⟩
  | .hbm, ⟨8, _⟩ => ⟨S4x4096x1024, .f32⟩
  | .hbm, ⟨9, _⟩ => ⟨S4x4096x1024, .f32⟩
  | .hbm, ⟨10, _⟩ => ⟨S4x4096, .f32⟩
  | .hbm, ⟨11, _⟩ => ⟨S4x4x1024, .f32⟩
  | .hbm, ⟨12, _⟩ => ⟨S4x4096, .f32⟩
  | .hbm, ⟨13, _⟩ => ⟨S4x4x1024, .f32⟩
  | .hbm, ⟨14, _⟩ => ⟨S_, .f32⟩
  | .hbm, ⟨15, _⟩ => ⟨S4x4x1024, .f32⟩
  | .hbm, ⟨16, _⟩ => ⟨S4x4x1024, .f32⟩
  | .hbm, ⟨17, _⟩ => ⟨S_, .f32⟩
  | .hbm, ⟨18, _⟩ => ⟨S4x4x1024, .f32⟩
  | .hbm, ⟨19, _⟩ => ⟨S4x4x1024, .f32⟩
  | .hbm, ⟨20, _⟩ => ⟨S4x4096x4, .f32⟩
  | .hbm, ⟨21, _⟩ => ⟨S4x4096x1024, .f32⟩
  | .hbm, ⟨22, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  shapeCasts_S4x4096_S4x4x1024 : S4x4096.ShapeCasts S4x4x1024
  bcast_S_S4x4x1024 : S_.BroadcastsInDim S4x4x1024 (![] : Fin 0 → Fin S4x4x1024.rank)
  dot_S4x4096x1024_S1024x1024_S4x4096x1024_2_0_01_1_n_n_wf : DotDims.WF S4x4096x1024 S1024x1024 S4x4096x1024 [2] [0] [0, 1] [1] [] []
  dot_S4x512_S512x4096_S4x4096_1_0_0_1_n_n_wf : DotDims.WF S4x512 S512x4096 S4x4096 [1] [0] [0] [1] [] []
  dot_S4x4096x1024_S4x4x1024_S4x4096x4_2_2_1_1_0_0_wf : DotDims.WF S4x4096x1024 S4x4x1024 S4x4096x4 [2] [2] [1] [1] [0] [0]
  dot_S4x4096x4_S4x4x1024_S4x4096x1024_2_1_1_2_0_0_wf : DotDims.WF S4x4096x4 S4x4x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x512_S512x4096_S4x4096_1_0_0_1_n_n : DotDims S4x512 S512x4096 S4x4096 where
  lhsContracting := [1]
  rhsContracting := [0]
  lhsNonContracting := [0]
  rhsNonContracting := [1]
  lhsBatch := []
  rhsBatch := []
  wf := dot_S4x512_S512x4096_S4x4096_1_0_0_1_n_n_wf
def dot_S4x4096x1024_S4x4x1024_S4x4096x4_2_2_1_1_0_0 : DotDims S4x4096x1024 S4x4x1024 S4x4096x4 where
  lhsContracting := [2]
  rhsContracting := [2]
  lhsNonContracting := [1]
  rhsNonContracting := [1]
  lhsBatch := [0]
  rhsBatch := [0]
  wf := dot_S4x4096x1024_S4x4x1024_S4x4096x4_2_2_1_1_0_0_wf
def dot_S4x4096x4_S4x4x1024_S4x4096x1024_2_1_1_2_0_0 : DotDims S4x4096x4 S4x4x1024 S4x4096x1024 where
  lhsContracting := [2]
  rhsContracting := [1]
  lhsNonContracting := [1]
  rhsNonContracting := [2]
  lhsBatch := [0]
  rhsBatch := [0]
  wf := dot_S4x4096x4_S4x4x1024_S4x4096x1024_2_1_1_2_0_0_wf

class Facts : Prop extends Facts₀ where

variable [Facts]
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.BodyEntry.lean ====
/-
  One grid point's work, read at an entry. The body holds a `2048 × 1024` block of rows `x`, the whole weight `w`,
  the bias, and the two factors of its batch, `a` stored as `1024 × 4` and `b` as `4 × 1024`. Entry `(r, f)` of what it
  stores is

      (Σ_d x (r, d) · w (d, f) + bias f) + Σ_k (Σ_d x (r, d) · a (d, k)) · b (k, f):

  three matrix products into zero accumulators, each a plain sum over the contracted axis, the narrowings to the
  shorter format the identity on exact values.
-/
import proofs.«115057_j80092550136286_2_alg».proof.Proof.Gen.KernelIdeal.Skeleton
import proofs.«115057_j80092550136286_2_alg».proof.Proof.LibDense
import Idealize.ShloMosaic.Lib.ValueLayout

noncomputable section

namespace Cert.KernelIdeal.Body

open Cert.KernelIdeal Cert.KernelIdeal.Gen Idealize.ShloMosaic Idealize.ShloMosaic.ValueIdx

/-- The stored block at `(0, r, f)`. -/
theorem pay_entry (v0 : FVec Ideal S1x2048x1024 .f32) (v3 : FVec Ideal S1024x1024 .bf16) (v6 : FVec Ideal S1024 .f32)
    (v10 : FVec Ideal S1x1024x4 .bf16) (v12 : FVec Ideal S1x4x1024 .bf16) (u : Fin 1) (r : Fin 2048) (f : Fin 1024) :
    k0_pay1 (F := Ideal) v0 v3 v6 v10 v12 (ix3 u r f)
      = ((∑ d : Fin 1024, v0 (ix3 (0 : Fin 1) r d) * v3 (ix2 d f)) + v6 (ix1 f))
        + ∑ k : Fin 4, (∑ d : Fin 1024, v0 (ix3 (0 : Fin 1) r d) * v10 (ix3 (0 : Fin 1) d k)) * v12 (ix3 (0 : Fin 1) k f) := by
  unfold k0_pay1
  refine (shapeCast_ab_1ab_apply _ _ u r f).trans ?_
  refine congrArg₂ (fun s t : EReal => s + t) (congrArg₂ (fun s t : EReal => s + t) ?_ ?_) ?_
  · -- the dense product: row `r` of the block against column `f` of the weight
    refine (Cert.LibDense.plain_matmul_apply none _ _ r f).trans (Finset.sum_congr rfl fun d _ => ?_)
    exact congrArg₂ (fun s t : EReal => s * t) (shapeCast_1ab_ab_apply v0 _ r d)
      (congrFun (shapeCast_self v3 _) (ix2 d f))
  · -- the bias, stood up as a row and spread over the rows
    exact (broadcastTo_1b_ab_apply _ _ r f).trans (shapeCast_a_1a_apply v6 _ 0 f)
  · -- the correction: first the `2048 × 4` product with `a`, then that against `b`
    refine (Cert.LibDense.plain_matmul_apply none _ _ r f).trans (Finset.sum_congr rfl fun k _ => ?_)
    refine congrArg₂ (fun s t : EReal => s * t) ?_ (shapeCast_1ab_ab_apply v12 _ k f)
    refine (Cert.LibDense.plain_matmul_apply none _ _ r k).trans (Finset.sum_congr rfl fun d _ => ?_)
    exact congrArg₂ (fun s t : EReal => s * t) (shapeCast_1ab_ab_apply v0 _ r d) (shapeCast_1ab_ab_apply v10 _ d k)

end Cert.KernelIdeal.Body

end
-- ==== Proof.HostSide.lean ====
/-
  What the region finds in the three arrays the host code writes before it. The weight is only narrowed, which
  changes no exact value. Each factor is the conditioning vector's projection (`[4, 512] · [512, 4096]`), read as four
  rows of 1024 per batch and scaled by 1/64; the first factor is then laid out with its two last axes exchanged.
-/
import proofs.«115057_j80092550136286_2_alg».proof.Proof.Gen.KernelIdeal.Frame
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.StableHlo

/-- A factor of the correction: the projection of the conditioning vector `hv` by `wf`, as `[4, 4, 1024]`, times 1/64. -/
def factor (hv : FVec Ideal S4x512 .f32) (wf : FVec Ideal S512x4096 .f32) : FVec Ideal S4x4x1024 .f32 :=
  mulf (shapeCast S4x4x1024 (Host.dotGeneral (F := Ideal) dot_S4x512_S512x4096_S4x4096_1_0_0_1_n_n none hv wf) shapeCasts_S4x4096_S4x4x1024)
    (broadcastInDim S4x4x1024 ![] bcast_S_S4x4x1024 (constant (F := Ideal) S_ .f32 0x3C800000#32))

variable (m : (ℓ : Loc nD τ sig) → Buf (Elt Ideal) ℓ)

/-- The weight the region stages holds the argument's values. -/
theorem V_weight (c : Dev nD) :
    (V m c main_v11 : S1024x1024.Idx → EReal) = m ((c : Thread nD τ).loc main_arg2) := by
  dsimp only [Gen.V, Gen.hostOps0]; after_results; rfl

/-- The first factor as staged: `factor` of the first projection, its row and column axes exchanged. -/
theorem V_first (c : Dev nD) :
    (V m c main_v9 : S4x1024x4.Idx → EReal)
      = transpose S4x1024x4 [0, 2, 1] (factor (m ((c : Thread nD τ).loc main_arg1)) (m ((c : Thread nD τ).loc main_arg4)))
          transposes_S4x4x1024_S4x1024x4_0_2_1 := by
  dsimp only [Gen.V, Gen.hostOps0]; after_results; rfl

/-- The second factor as staged: `factor` of the second projection. -/
theorem V_second (c : Dev nD) :
    (V m c main_v10 : S4x4x1024.Idx → EReal)
      = factor (m ((c : Thread nD τ).loc main_arg1)) (m ((c : Thread nD τ).loc main_arg5)) := by
  dsimp only [Gen.V, Gen.hostOps0]; after_results; rfl

end Cert.KernelIdeal.HostSide

end
-- ==== Proof.LowRank.lean ====
/-
  The function both programs compute. For a batch `p`, a row `s` and an output feature `f`,

      out (p, s, f) = (Σ_d x (p, s, d) · w (d, f) + bias f) + Σ_k (Σ_d x (p, s, d) · a (p, k, d)) · b (p, k, f):

  a dense layer with its bias, plus a correction of rank four whose two factors `a`, `b` (one `4 × 1024` matrix
  each per batch) are arrays of their own here. The inner sum over `d` is formed first and then multiplied by
  `b`, on both sides, so nothing is distributed over a sum and no entry has to be finite.
-/
import Idealize.ShloMosaic.Lib.ValueIdx
import Idealize.ShloMosaic.PureOps.Ideal.Laws

noncomputable section

namespace Cert.LowRank

open Idealize.ShloMosaic Idealize.ShloMosaic.ValueIdx

/-- The result at batch `p`, row `s`, feature `f`. -/
def entry (x : FVec Ideal ⟨3, ![4, 4096, 1024]⟩ .f32) (w : FVec Ideal ⟨2, ![1024, 1024]⟩ .f32)
    (bias : FVec Ideal ⟨1, ![1024]⟩ .f32) (a b : FVec Ideal ⟨3, ![4, 4, 1024]⟩ .f32)
    (p : Fin 4) (s : Fin 4096) (f : Fin 1024) : EReal :=
  ((∑ d : Fin 1024, x (ix3 p s d) * w (ix2 d f)) + bias (ix1 f))
    + ∑ k : Fin 4, (∑ d : Fin 1024, x (ix3 p s d) * a (ix3 p k d)) * b (ix3 p k f)

/-- The whole result array. -/
def out (x : FVec Ideal ⟨3, ![4, 4096, 1024]⟩ .f32) (w : FVec Ideal ⟨2, ![1024, 1024]⟩ .f32)
    (bias : FVec Ideal ⟨1, ![1024]⟩ .f32) (a b : FVec Ideal ⟨3, ![4, 4, 1024]⟩ .f32) :
    FVec Ideal ⟨3, ![4, 4096, 1024]⟩ .f32 :=
  fun i => entry x w bias a b (i 0) (i 1) (i 2)

theorem out_apply (x : FVec Ideal ⟨3, ![4, 4096, 1024]⟩ .f32) (w : FVec Ideal ⟨2, ![1024, 1024]⟩ .f32)
    (bias : FVec Ideal ⟨1, ![1024]⟩ .f32) (a b : FVec Ideal ⟨3, ![4, 4, 1024]⟩ .f32)
    (p : Fin 4) (s : Fin 4096) (f : Fin 1024) :
    out x w bias a b (ix3 p s f) = entry x w bias a b p s f := rfl

end Cert.LowRank

end
-- ==== Proof.Blocks.lean ====
/-
  What one grid point writes back is its block of the specification. Point `t` has a batch `p` and a half `q` of the
  4096 rows: it holds rows `2048 q … 2048 q + 2047` of batch `p` of `x`, the whole weight and bias, and batch `p` of the two
  factors, and writes rows `2048 q …` of batch `p` of the result. Read at an entry, its stored block is the specification's
  entry at `(p, 2048 q + r, f)`.
-/
import proofs.«115057_j80092550136286_2_alg».proof.Proof.Gen.KernelIdeal.Value
import proofs.«115057_j80092550136286_2_alg».proof.Proof.BodyEntry
import proofs.«115057_j80092550136286_2_alg».proof.Proof.HostSide
import proofs.«115057_j80092550136286_2_alg».proof.Proof.LowRank

noncomputable section

namespace Cert.KernelIdeal.Blocks

open Cert.KernelIdeal Cert.KernelIdeal.Gen Cert.KernelIdeal.HostSide Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array on core `c`: the specification of the arguments as launched and the two factors. -/
def spec (c : Dev nD) : FVec Ideal S4x4096x1024 .f32 :=
  Cert.LowRank.out (m ((c : Thread nD τ).loc main_arg0)) (m ((c : Thread nD τ).loc main_arg2)) (m ((c : Thread nD τ).loc main_arg3))
    (factor (m ((c : Thread nD τ).loc main_arg1)) (m ((c : Thread nD τ).loc main_arg4)))
    (factor (m ((c : Thread nD τ).loc main_arg1)) (m ((c : Thread nD τ).loc main_arg5)))

/-- The block indices at a point, decided over the eight points: the rows of `x` move with the output's block; the
    weight and the bias stay; each factor is at the output's batch. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) < 4 ∧ win0_5.index t (1 : Fin 3) < 2 ∧ win0_5.index t (2 : Fin 3) = 0 :=
  (by decide +kernel : ∀ t : Fin grid0.N, _)

/-- Every (batch, half) is some point's. -/
theorem idx_onto : ∀ (p : Fin 4) (q : Fin 2), ∃ t : Fin cfg0.N, win0_5.index t = ![p.val, q.val, 0] :=
  (by decide +kernel : ∀ (p : Fin 4) (q : Fin 2), ∃ t : Fin grid0.N, win0_5.index t = ![p.val, q.val, 0])

/-- The row in the array of row `r` of half `q`. -/
abbrev row (q : Fin 2) (r : Fin 2048) : Fin 4096 := ⟨q.val * 2048 + r.val, by have := q.isLt; have := r.isLt; omega⟩

section Reads
variable (c : Dev nD) (t : Fin cfg0.N) (p : Fin 4) (q : Fin 2)
  (hp : win0_5.index t (0 : Fin 3) = p.val) (hq : win0_5.index t (1 : Fin 3) = q.val)

include hp hq in
/-- The block of `x` at the point holds rows `2048 q + r` of batch `p`. -/
theorem read_rows (u : Fin 1) (r : Fin 2048) (d : Fin 1024) :
    (iblk m c 0 t : FVec Ideal S1x2048x1024 .f32) (ix3 u r d) = m ((c : Thread nD τ).loc main_arg0) (ix3 p (row q r) d) := by
  obtain ⟨e0, e1, e2, -⟩ := idx_facts t
  show V m c main_arg0 (((cfg0.win 0).blk t).view.emb (ix3 u r d)) = _
  rw [V_main_arg0]
  refine congrArg _ (funext fun a => Fin.ext ?_)
  have hu : u.val = 0 := by have := u.isLt; omega
  match a with
  | ⟨0, _⟩ => show win0_0.index t (0 : Fin 3) * 1 + 1 * u.val = p.val; omega
  | ⟨1, _⟩ => show win0_0.index t (1 : Fin 3) * 2048 + 1 * r.val = q.val * 2048 + r.val; omega
  | ⟨2, _⟩ => show win0_0.index t (2 : Fin 3) * 1024 + 1 * d.val = d.val; omega

/-- The weight's block is the weight. -/
theorem read_weight (d f : Fin 1024) :
    (iblk m c 1 t : FVec Ideal S1024x1024 .bf16) (ix2 d f) = m ((c : Thread nD τ).loc main_arg2) (ix2 d f) := by
  obtain ⟨-, -, -, e0, e1, -⟩ := idx_facts t
  show (V m c main_v11 : S1024x1024.Idx → EReal) (((cfg0.win 1).blk t).view.emb (ix2 d f)) = _
  rw [V_weight]
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * f.val = f.val; omega

/-- The bias's block is the bias. -/
theorem read_bias (f : Fin 1024) :
    (iblk m c 2 t : FVec Ideal S1024 .f32) (ix1 f) = m ((c : Thread nD τ).loc main_arg3) (ix1 f) := by
  obtain ⟨-, -, -, -, -, e0, -⟩ := idx_facts t
  show V m c main_arg3 (((cfg0.win 2).blk t).view.emb (ix1 f)) = _
  rw [V_main_arg3]
  refine congrArg _ (funext fun a => Fin.ext ?_)
  match a with
  | ⟨0, _⟩ => show win0_2.index t (0 : Fin 1) * 1024 + 1 * f.val = f.val; omega

include hp in
/-- The first factor's block at `(d, k)` is the factor of batch `p` at `(k, d)`. -/
theorem read_first (u : Fin 1) (d : Fin 1024) (k : Fin 4) :
    (iblk m c 3 t : FVec Ideal S1x1024x4 .bf16) (ix3 u d k)
      = factor (m ((c : Thread nD τ).loc main_arg1)) (m ((c : Thread nD τ).loc main_arg4)) (ix3 p k d) := by
  obtain ⟨-, -, -, -, -, -, e0, e1, e2, -⟩ := idx_facts t
  show (V m c main_v9 : S4x1024x4.Idx → EReal) (((cfg0.win 3).blk t).view.emb (ix3 u d k)) = _
  rw [V_first]
  have hu : u.val = 0 := by have := u.isLt; omega
  have he : ((cfg0.win 3).blk t).view.emb (ix3 u d k) = ix3 p d k := funext fun a => Fin.ext (by
    match a with
    | ⟨0, _⟩ => show win0_3.index t (0 : Fin 3) * 1 + 1 * u.val = p.val; omega
    | ⟨1, _⟩ => show win0_3.index t (1 : Fin 3) * 1024 + 1 * d.val = d.val; omega
    | ⟨2, _⟩ => show win0_3.index t (2 : Fin 3) * 4 + 1 * k.val = k.val; omega)
  rw [he]
  exact transpose_ix3_021_apply _ _ p d k

include hp in
/-- The second factor's block at `(k, f)` is the factor of batch `p` there. -/
theorem read_second (u : Fin 1) (k : Fin 4) (f : Fin 1024) :
    (iblk m c 4 t : FVec Ideal S1x4x1024 .bf16) (ix3 u k f)
      = factor (m ((c : Thread nD τ).loc main_arg1)) (m ((c : Thread nD τ).loc main_arg5)) (ix3 p k f) := by
  obtain ⟨-, -, -, -, -, -, -, -, -, e0, e1, e2, -⟩ := idx_facts t
  show (V m c main_v10 : S4x4x1024.Idx → EReal) (((cfg0.win 4).blk t).view.emb (ix3 u k f)) = _
  rw [V_second]
  have hu : u.val = 0 := by have := u.isLt; omega
  refine congrArg _ (funext fun a => Fin.ext ?_)
  match a with
  | ⟨0, _⟩ => show win0_4.index t (0 : Fin 3) * 1 + 1 * u.val = p.val; omega
  | ⟨1, _⟩ => show win0_4.index t (1 : Fin 3) * 4 + 1 * k.val = k.val; omega
  | ⟨2, _⟩ => show win0_4.index t (2 : Fin 3) * 1024 + 1 * f.val = f.val; omega

end Reads

/-- WHAT POINT `t` WRITES BACK is block `t` of the specification. -/
theorem flushed_eq (c : Dev nD) (t : Fin cfg0.N) :
    (dats m 0 c).flushed 5 t = ((cfg0.win 5).blk t).view.read (Elt Ideal) (spec m c) := by
  rw [Cert.KernelIdeal.Value.flushed5]
  unfold out0_5
  rw [View.canon_unit_zero hz3]
  simp only [View.ld_unit_zero (S := S1x2048x1024) hz3, View.ld_unit_zero (S := S1024x1024) hz2,
    View.ld_unit_zero (S := S1024) hz1, View.ld_unit_zero (S := S1x1024x4) hz3, View.ld_unit_zero (S := S1x4x1024) hz3]
  obtain ⟨-, -, -, -, -, -, -, -, -, -, -, -, h0, h1, h2⟩ := idx_facts t
  funext j
  obtain ⟨u, r, f, rfl⟩ : ∃ (u : Fin 1) (r : Fin 2048) (f : Fin 1024), j = ix3 u r f := ⟨j 0, j 1, j 2, eq_ix3 j⟩
  show k0_pay1 (F := Ideal) (iblk m c 0 t) (iblk m c 1 t) (iblk m c 2 t) (iblk m c 3 t) (iblk m c 4 t) (ix3 u r f)
    = spec m c (((cfg0.win 5).blk t).view.emb (ix3 u r f))
  have hu : u.val = 0 := by have := u.isLt; omega
  have he : ((cfg0.win 5).blk t).view.emb (ix3 u r f)
      = ix3 (⟨win0_5.index t (0 : Fin 3), h0⟩ : Fin 4) (row ⟨win0_5.index t (1 : Fin 3), h1⟩ r) f := funext fun a => Fin.ext (by
    match a with
    | ⟨0, _⟩ => show win0_5.index t (0 : Fin 3) * 1 + 1 * u.val = win0_5.index t (0 : Fin 3); omega
    | ⟨1, _⟩ => show win0_5.index t (1 : Fin 3) * 2048 + 1 * r.val = win0_5.index t (1 : Fin 3) * 2048 + r.val; omega
    | ⟨2, _⟩ => show win0_5.index t (2 : Fin 3) * 1024 + 1 * f.val = f.val; omega)
  rw [he]
  unfold spec
  rw [Cert.LowRank.out_apply]
  refine (Cert.KernelIdeal.Body.pay_entry _ _ _ _ _ u r f).trans ?_
  unfold Cert.LowRank.entry
  simp only [read_rows m c t ⟨_, h0⟩ ⟨_, h1⟩ rfl rfl, read_weight m c t, read_bias m c t,
    read_first m c t ⟨_, h0⟩ rfl, read_second m c t ⟨_, h0⟩ rfl]

end Cert.KernelIdeal.Blocks

end
-- ==== Proof.Cover.lean ====
/-
  From blocks to the array. The eight output blocks — one per batch and half of the rows — tile the result array:
  the entry at batch `p`, row `s` lies in the block of batch `p` and half `s / 2048`. Each block written back is that
  block of the specification, so the array ends as the specification, and the run's result is restated so.
-/
import proofs.«115057_j80092550136286_2_alg».proof.Proof.Blocks

noncomputable section

namespace Cert.KernelIdeal.Blocks

open Cert.KernelIdeal Cert.KernelIdeal.Gen Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-- An index of the array is in point `t`'s block iff each coordinate is in the block's range on its axis. -/
theorem mem_blk (t : Fin cfg0.N) (i : S4x4096x1024.Idx) :
    i ∈ ((cfg0.win 5).blk t).view.set ↔ ∀ a : Fin 3, win0_5.index t a * S1x2048x1024.size a ≤ (i a).val
      ∧ (i a).val < win0_5.index t a * S1x2048x1024.size a + S1x2048x1024.size a := by
  show i ∈ ((View.whole main_v12).slice (win0_5.rect t)).set ↔ _
  rw [View.set_slice_whole, Rect.mem_set_unit]
  exact Iff.rfl

/-- Every index of the result array is in some point's block. -/
theorem cover (i : S4x4096x1024.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 2048, by omega⟩
  have q0 : win0_5.index t (0 : Fin 3) = (i 0).val := congrFun ht 0
  have q1 : win0_5.index t (1 : Fin 3) = (i 1).val / 2048 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 1024 ≤ (i 2).val ∧ (i 2).val < win0_5.index t (2 : Fin 3) * 1024 + 1024; omega

/-- THE ARRAY after the run is the specification. -/
theorem final (c : Dev nD) : (dats m 0 c).arrAt 5 cfg0.N = spec m c :=
  (dats m 0 c).arrAt_eq_of_cover 5 (spec m c) (fun t _ => flushed_eq m c t) cover

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v12) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Blocks

end
-- ==== Proof.Reference.lean ====
/-
  The reference's result is the specification. Read one operation at a time, its entry `(p, s, f)` is the dense
  product with the bias row added, plus the sum over the rank index `k` of (row `s` of `x` against row `k` of the first
  factor of batch `p`) times the second factor at `(p, k, f)`. The two factors — the scaled, reshaped projections of
  the conditioning vector — are left as the arrays they are.
-/
import proofs.«115057_j80092550136286_2_alg».proof.Proof.Gen.ReferenceIdeal.Read
import proofs.«115057_j80092550136286_2_alg».proof.Proof.LowRank

noncomputable section

namespace Cert.ReferenceIdeal.RefValue

open Cert.ReferenceIdeal Cert.ReferenceIdeal.Read Idealize.ShloMosaic Idealize.ShloMosaic.ValueIdx

/-- The reference's result, as the run states it, is `out` of the arguments and the reference's two factor arrays. -/
theorem result_eq (x0 : FVec Ideal S4x4096x1024 .f32) (x1 : FVec Ideal S4x512 .f32) (x2 : FVec Ideal S1024x1024 .f32)
    (x3 : FVec Ideal S1024 .f32) (x4 x5 : FVec Ideal S512x4096 .f32) :
    val_main_v14 (F := Ideal) x0 x1 x2 x3 x4 x5
      = Cert.LowRank.out x0 x2 x3 (val_main_v9 (F := Ideal) x1 x4) (val_main_v11 (F := Ideal) x1 x5) := by
  funext i
  obtain ⟨p, s, f, rfl⟩ : ∃ (p : Fin 4) (s : Fin 4096) (f : Fin 1024), i = ix3 p s f := ⟨i 0, i 1, i 2, eq_ix3 i⟩
  rw [Cert.LowRank.out_apply, val_main_v14_apply, val_main_v3_apply, val_main_v0_apply, val_main_v2_apply,
    val_main_v1_apply, val_main_v13_apply]
  simp only [val_main_v12_apply]
  -- the operand indices of the four products and of the bias row, as coordinates
  have e1 : ∀ d : Fin 1024, lidx_main_v0 (ix3 p s f) d = ix3 p s d := fun d => funext fun a =>
    match a with | ⟨0, _⟩ => rfl | ⟨1, _⟩ => rfl | ⟨2, _⟩ => rfl
  have e2 : ∀ d : Fin 1024, ridx_main_v0 (ix3 p s f) d = ix2 d f := fun d => funext fun a =>
    match a with | ⟨0, _⟩ => rfl | ⟨1, _⟩ => rfl
  have e3 : idx_main_v1 (idx_main_v2 (ix3 p s f)) = ix1 f := funext fun a =>
    match a with | ⟨0, _⟩ => rfl
  have e4 : ∀ (k : Fin 4) (d : Fin 1024), lidx_main_v12 (lidx_main_v13 (ix3 p s f) k) d = ix3 p s d := fun k d => funext fun a =>
    match a with | ⟨0, _⟩ => rfl | ⟨1, _⟩ => rfl | ⟨2, _⟩ => rfl
  have e5 : ∀ (k : Fin 4) (d : Fin 1024), ridx_main_v12 (lidx_main_v13 (ix3 p s f) k) d = ix3 p k d := fun k d => funext fun a =>
    match a with | ⟨0, _⟩ => rfl | ⟨1, _⟩ => rfl | ⟨2, _⟩ => rfl
  have e6 : ∀ k : Fin 4, ridx_main_v13 (ix3 p s f) k = ix3 p k f := fun k => funext fun a =>
    match a with | ⟨0, _⟩ => rfl | ⟨1, _⟩ => rfl | ⟨2, _⟩ => rfl
  simp only [e1, e2, e3, e4, e5, e6]
  rfl

end Cert.ReferenceIdeal.RefValue

end
-- ==== Proof.lean ====
/-
  A dense layer with a rank-four correction whose factors depend on the batch, computed by a tiled kernel and by
  plain array code, are the same function of their arguments on exact values.

  For a batch `p`, a row `s` and a feature `f` both give

      (Σ_d x (p, s, d) · W (d, f) + bias f) + Σ_k (Σ_d x (p, s, d) · A (p, k, d)) · B (p, k, f),

  where `A` and `B` are the conditioning vector's two projections, each read as four rows of 1024 per batch and scaled by
  1/64 (`LowRank`). The kernel computes it one `2048 × 1024` block of rows at a time from three matrix products into zero
  accumulators (`BodyEntry`), on arrays the host code prepared — the weight narrowed, the first factor with its two last axes
  exchanged (`HostSide`); each block written back is its block of the function (`Blocks`) and the eight blocks tile the result
  (`Cover`). The reference forms the same sums with whole-array products (`Reference`). Both build the factors from the same
  operations, and both form the inner sum over `d` before multiplying by `B`, so the two sides agree term by term: no sum is
  rearranged beyond its order, and nothing needs the inputs to be finite. The narrowings to the shorter float format change no
  exact value, and no operation of the kernel was rewritten for the exact reading, so that part of the claim is empty.
-/
import proofs.«115057_j80092550136286_2_alg».proof.Defs
import proofs.«115057_j80092550136286_2_alg».proof.Proof.Gen.Kernel
import proofs.«115057_j80092550136286_2_alg».proof.Proof.Gen.Kernel.Skeleton
import proofs.«115057_j80092550136286_2_alg».proof.Proof.Gen.Kernel.Launch
import proofs.«115057_j80092550136286_2_alg».proof.Proof.Gen.Kernel.Points
import proofs.«115057_j80092550136286_2_alg».proof.Proof.Gen.Kernel.Frame
import proofs.«115057_j80092550136286_2_alg».proof.Proof.Gen.KernelIdeal
import proofs.«115057_j80092550136286_2_alg».proof.Proof.Gen.KernelIdeal.Skeleton
import proofs.«115057_j80092550136286_2_alg».proof.Proof.Gen.KernelIdeal.Launch
import proofs.«115057_j80092550136286_2_alg».proof.Proof.Gen.KernelIdeal.Points
import proofs.«115057_j80092550136286_2_alg».proof.Proof.Gen.KernelIdeal.Frame
import proofs.«115057_j80092550136286_2_alg».proof.Proof.Gen.ReferenceIdeal
import proofs.«115057_j80092550136286_2_alg».proof.Proof.Gen.Pre_finite_inputs
import proofs.«115057_j80092550136286_2_alg».proof.Proof.Gen.KernelIdeal.Value
import proofs.«115057_j80092550136286_2_alg».proof.Proof.Gen.ReferenceIdeal.Run
import proofs.«115057_j80092550136286_2_alg».proof.Proof.Gen.ReferenceIdeal.Read
import proofs.«115057_j80092550136286_2_alg».proof.Proof.Cover
import proofs.«115057_j80092550136286_2_alg».proof.Proof.Reference
import Idealize.ShloMosaic.Adequacy
import Idealize.ShloMosaic.Init

noncomputable section

namespace Cert.Proof

open Idealize.ShloMosaic Idealize.ShloMosaic.TcCoe Idealize.SL.Sem

/-- The reference's first factor is the kernel's: the same projection, reshape and scaling. -/
theorem factor_first (hv : FVec Ideal ⟨2, ![4, 512]⟩ .f32) (wf : FVec Ideal ⟨2, ![512, 4096]⟩ .f32) :
    Cert.ReferenceIdeal.Read.val_main_v9 (F := Ideal) hv wf = Cert.KernelIdeal.HostSide.factor hv wf := rfl

/-- The reference's second factor is the kernel's. -/
theorem factor_second (hv : FVec Ideal ⟨2, ![4, 512]⟩ .f32) (wf : FVec Ideal ⟨2, ![512, 4096]⟩ .f32) :
    Cert.ReferenceIdeal.Read.val_main_v11 (F := Ideal) hv wf = Cert.KernelIdeal.HostSide.factor hv wf := rfl

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the exact reading. -/
theorem preserves : Cert.preserves_Kernel_KernelIdeal := trivial

/-- From arguments that agree, the kernel's result array and the reference's end at the one specification. -/
theorem algebraic : Cert.algebraic_KernelIdeal_ReferenceIdeal := by
  intro m ρ m' ρ' _ hagree
  refine ⟨fun c => Cert.KernelIdeal.Blocks.spec m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, factor_first, factor_second,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
